-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v5) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x4096 : Shape := ⟨2, ![8, 4096]⟩
abbrev S11008x4096 : Shape := ⟨2, ![11008, 4096]⟩
abbrev S11008 : Shape := ⟨1, ![11008]⟩
abbrev S_ : Shape := ⟨0, ![]⟩

class Facts : Prop where
  bcast_S_S8x4096 : S_.BroadcastsInDim S8x4096 (![] : Fin 0 → Fin S8x4096.rank)
  reducesTo_S8x4096_S_d0_1 : S8x4096.ReducesTo [0, 1] S_
  h_S_ : 0 < S_.numel
  bcast_S_S11008x4096 : S_.BroadcastsInDim S11008x4096 (![] : Fin 0 → Fin S11008x4096.rank)
  reducesTo_S11008x4096_S_d0_1 : S11008x4096.ReducesTo [0, 1] S_
  bcast_S_S11008 : S_.BroadcastsInDim S11008 (![] : Fin 0 → Fin S11008.rank)
  reducesTo_S11008_S_d0 : S11008.ReducesTo [0] S_

variable [Facts]

def fn_part1 {F : FTy → Type} [FloatOps F] (main_arg4 : FVec F S11008 .f32) (main_v13 : IVec S_ 1) (main_v16 : IVec S11008x4096 1) : IVec S_ 1 :=
  let main_c_5 : IVec S_ 1 := constantI S_ 1 1#1
  let main_v17 : IVec S_ 1 := (fun x v => Host.reduce IntOp.andi x v reducesTo_S11008x4096_S_d0_1 h_S_) main_v16 main_c_5
  let main_v18 : IVec S_ 1 := andi main_v13 main_v17
  let main_v19 : FVec F S11008 .f32 := Host.absf main_arg4
  let main_cst_6 : FVec F S_ .f32 := constant S_ .f32 0x7F800000#32
  let main_v20 : FVec F S11008 .f32 := broadcastInDim S11008 ![] bcast_S_S11008 main_cst_6
  let main_v21 : IVec S11008 1 := cmpf .olt main_v19 main_v20
  let main_c_7 : IVec S_ 1 := constantI S_ 1 1#1
  let main_v22 : IVec S_ 1 := (fun x v => Host.reduce IntOp.andi x v reducesTo_S11008_S_d0 h_S_) main_v21 main_c_7
  let main_v23 : IVec S_ 1 := andi main_v18 main_v22
  main_v23

def fn {F : FTy → Type} [FloatOps F] (main_arg0 : FVec F S8x4096 .f32) (main_arg1 : FVec F S11008x4096 .f32) (main_arg2 : FVec F S11008x4096 .f32) (main_arg3 : FVec F S11008x4096 .f32) (main_arg4 : FVec F S11008 .f32) : IVec S_ 1 :=
  let main_v0 : FVec F S8x4096 .f32 := Host.absf main_arg0
  let main_cst : FVec F S_ .f32 := constant S_ .f32 0x7F800000#32
  let main_v1 : FVec F S8x4096 .f32 := broadcastInDim S8x4096 ![] bcast_S_S8x4096 main_cst
  let main_v2 : IVec S8x4096 1 := cmpf .olt main_v0 main_v1
  let main_c : IVec S_ 1 := constantI S_ 1 1#1
  let main_v3 : IVec S_ 1 := (fun x v => Host.reduce IntOp.andi x v reducesTo_S8x4096_S_d0_1 h_S_) main_v2 main_c
  let main_v4 : FVec F S11008x4096 .f32 := Host.absf main_arg1
  let main_cst_0 : FVec F S_ .f32 := constant S_ .f32 0x7F800000#32
  let main_v5 : FVec F S11008x4096 .f32 := broadcastInDim S11008x4096 ![] bcast_S_S11008x4096 main_cst_0
  let main_v6 : IVec S11008x4096 1 := cmpf .olt main_v4 main_v5
  let main_c_1 : IVec S_ 1 := constantI S_ 1 1#1
  let main_v7 : IVec S_ 1 := (fun x v => Host.reduce IntOp.andi x v reducesTo_S11008x4096_S_d0_1 h_S_) main_v6 main_c_1
  let main_v8 : IVec S_ 1 := andi main_v3 main_v7
  let main_v9 : FVec F S11008x4096 .f32 := Host.absf main_arg2
  let main_cst_2 : FVec F S_ .f32 := constant S_ .f32 0x7F800000#32
  let main_v10 : FVec F S11008x4096 .f32 := broadcastInDim S11008x4096 ![] bcast_S_S11008x4096 main_cst_2
  let main_v11 : IVec S11008x4096 1 := cmpf .olt main_v9 main_v10
  let main_c_3 : IVec S_ 1 := constantI S_ 1 1#1
  let main_v12 : IVec S_ 1 := (fun x v => Host.reduce IntOp.andi x v reducesTo_S11008x4096_S_d0_1 h_S_) main_v11 main_c_3
  let main_v13 : IVec S_ 1 := andi main_v8 main_v12
  let main_v14 : FVec F S11008x4096 .f32 := Host.absf main_arg3
  let main_cst_4 : FVec F S_ .f32 := constant S_ .f32 0x7F800000#32
  let main_v15 : FVec F S11008x4096 .f32 := broadcastInDim S11008x4096 ![] bcast_S_S11008x4096 main_cst_4
  let main_v16 : IVec S11008x4096 1 := cmpf .olt main_v14 main_v15
  fn_part1 (F := F) main_arg4 main_v13 main_v16
-- ==== Kernel.lean ====
abbrev S8x4096 : Shape := ⟨2, ![8, 4096]⟩
abbrev S11008x4096 : Shape := ⟨2, ![11008, 4096]⟩
abbrev S11008 : Shape := ⟨1, ![11008]⟩
abbrev S1x11008 : Shape := ⟨2, ![1, 11008]⟩
abbrev S8x11008 : Shape := ⟨2, ![8, 11008]⟩
abbrev S8x2048 : Shape := ⟨2, ![8, 2048]⟩
abbrev S256x2048 : Shape := ⟨2, ![256, 2048]⟩
abbrev S1x256 : Shape := ⟨2, ![1, 256]⟩
abbrev S8x256 : Shape := ⟨2, ![8, 256]⟩

abbrev nBuf : Space → Nat
  | .hbm => 7
  | .vmem => 13
  | .smem => 0
  | _ => 0

abbrev bufTy : (tb : Table) → Fin (tcTables nBuf tb) → BufTy
  | .hbm, ⟨0, _⟩ => ⟨S8x4096, .f32⟩
  | .hbm, ⟨1, _⟩ => ⟨S11008x4096, .f32⟩
  | .hbm, ⟨2, _⟩ => ⟨S11008x4096, .f32⟩
  | .hbm, ⟨3, _⟩ => ⟨S11008x4096, .f32⟩
  | .hbm, ⟨4, _⟩ => ⟨S11008, .f32⟩
  | .hbm, ⟨5, _⟩ => ⟨S1x11008, .f32⟩
  | .hbm, ⟨6, _⟩ => ⟨S8x11008, .f32⟩
  | .local _ .vmem, ⟨0, _⟩ => ⟨S8x2048, .f32⟩
  | .local _ .vmem, ⟨1, _⟩ => ⟨S8x2048, .f32⟩
  | .local _ .vmem, ⟨2, _⟩ => ⟨S256x2048, .f32⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S256x2048, .f32⟩
  | .local _ .vmem, ⟨7, _⟩ => ⟨S256x2048, .f32⟩
  | .local _ .vmem, ⟨8, _⟩ => ⟨S1x256, .f32⟩
  | .local _ .vmem, ⟨9, _⟩ => ⟨S1x256, .f32⟩
  | .local _ .vmem, ⟨10, _⟩ => ⟨S8x256, .f32⟩
  | .local _ .vmem, ⟨11, _⟩ => ⟨S8x256, .f32⟩
  | .local _ .vmem, ⟨12, _⟩ => ⟨S8x256, .f32⟩
  | _, _ => ⟨S8x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![43, 2], ![false, false]⟩

def k0_cond2 (i : grid0.Coords) : BitVec 1 :=
  let arg1 : BitVec 32 := BitVec.ofNat 32 (i 1).val
  let c1_i32 : BitVec 32 := 1#32
  let v17 : BitVec 1 := Scalar.cmpi .eq arg1 c1_i32
  let v18 : BitVec 32 := Scalar.extui v17
  let c0_i32_12 : BitVec 32 := 0#32
  let v19 : BitVec 1 := Scalar.cmpi .ne v18 c0_i32_12
  v19

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S8x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S8x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

class Facts₀ : Prop where
  shapeCasts_S11008_S1x11008 : S11008.ShapeCasts S1x11008
  inb_S8x256_S8x256_0_0 : ∀ a, (![0, 0] : Fin 2 → Nat) a + S8x256.size a ≤ S8x256.size a
  h_S8x256 : 0 < S8x256.numel
  shapeCasts_S8x256_S8x256 : S8x256.ShapeCasts S8x256
  inb_S256x2048_S256x2048_0_0 : ∀ a, (![0, 0] : Fin 2 → Nat) a + S256x2048.size a ≤ S256x2048.size a
  h_S256x2048 : 0 < S256x2048.numel
  bitsLt_bf16_f32 : FTy.bits .bf16 < FTy.bits .f32
  inb_S8x2048_S8x2048_0_0 : ∀ a, (![0, 0] : Fin 2 → Nat) a + S8x2048.size a ≤ S8x2048.size a
  h_S8x2048 : 0 < S8x2048.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S8x256 : S1x256.Broadcasts S8x256
  dot_S8x2048_S256x2048_S8x256_1_1_0_0_n_n_wf : DotDims.WF S8x2048 S256x2048 S8x256 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x2048.size a ≤ S8x4096.size a
  hwx0_0 : ∀ i : grid0.Coords, EltTy.bits .f32 = 32 ∨ (Rect.block (s := S8x4096) S8x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x2048.size a ≤ S11008x4096.size a
  hwx0_1 : ∀ i : grid0.Coords, EltTy.bits .f32 = 32 ∨ (Rect.block (s := S11008x4096) S256x2048.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x2048.size a ≤ S11008x4096.size a
  hwx0_2 : ∀ i : grid0.Coords, EltTy.bits .f32 = 32 ∨ (Rect.block (s := S11008x4096) S256x2048.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S256x2048.size a ≤ S11008x4096.size a
  hwx0_3 : ∀ i : grid0.Coords, EltTy.bits .f32 = 32 ∨ (Rect.block (s := S11008x4096) S256x2048.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x256.size a ≤ S1x11008.size a
  hwx0_4 : ∀ i : grid0.Coords, EltTy.bits .f32 = 32 ∨ (Rect.block (s := S1x11008) S1x256.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S8x256.size a ≤ S8x11008.size a
  hwx0_5 : ∀ i : grid0.Coords, EltTy.bits .f32 = 32 ∨ (Rect.block (s := S8x11008) S8x256.size (cc0_transform_5 i) (hinb0_5 i)).WholeWords (EltTy.packing .f32)

variable [Facts₀]

def dot_S8x2048_S256x2048_S8x256_1_1_0_0_n_n : DotDims S8x2048 S256x2048 S8x256 where
  lhsContracting := [1]
  rhsContracting := [1]
  lhsNonContracting := [0]
  rhsNonContracting := [0]
  lhsBatch := []
  rhsBatch := []
  wf := dot_S8x2048_S256x2048_S8x256_1_1_0_0_n_n_wf

abbrev win0_0 : Pipeline.Window sig grid0 :=
  Pipeline.Window.ofSpec (Memref.whole main_arg0) S8x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S256x2048.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S256x2048.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0) S1x256.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v1) S8x256.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev idle0 : Fin 6 → grid0.Coords → Bool := fun | 0 => fun _ => false | 1 => fun _ => false | 2 => fun _ => false | 3 => fun _ => false | 4 => fun _ => false | 5 => fun i => !(k0_cond2 i == 1#1) | ⟨_ + 6, h⟩ => absurd h (Nat.not_lt.2 (Nat.le_add_left _ _))

class Facts : Prop extends Facts₀ where

variable [Facts]
-- ==== ReferenceIdeal.lean ====
abbrev S8x4096 : Shape := ⟨2, ![8, 4096]⟩
abbrev S11008x4096 : Shape := ⟨2, ![11008, 4096]⟩
abbrev S11008 : Shape := ⟨1, ![11008]⟩
abbrev S8x11008 : Shape := ⟨2, ![8, 11008]⟩
abbrev S1x11008 : Shape := ⟨2, ![1, 11008]⟩

abbrev nBuf : Space → Nat
  | .hbm => 11
  | .vmem => 0
  | .smem => 0
  | _ => 0

abbrev bufTy : (tb : Table) → Fin (tcTables nBuf tb) → BufTy
  | .hbm, ⟨0, _⟩ => ⟨S8x4096, .f32⟩
  | .hbm, ⟨1, _⟩ => ⟨S11008x4096, .f32⟩
  | .hbm, ⟨2, _⟩ => ⟨S11008x4096, .f32⟩
  | .hbm, ⟨3, _⟩ => ⟨S11008x4096, .f32⟩
  | .hbm, ⟨4, _⟩ => ⟨S11008, .f32⟩
  | .hbm, ⟨5, _⟩ => ⟨S11008x4096, .f32⟩
  | .hbm, ⟨6, _⟩ => ⟨S11008x4096, .f32⟩
  | .hbm, ⟨7, _⟩ => ⟨S8x11008, .f32⟩
  | .hbm, ⟨8, _⟩ => ⟨S1x11008, .f32⟩
  | .hbm, ⟨9, _⟩ => ⟨S8x11008, .f32⟩
  | .hbm, ⟨10, _⟩ => ⟨S8x11008, .f32⟩
  | _, _ => ⟨S8x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩

abbrev nD : Nat := 1
abbrev τ : Topo := Topo.v7x

variable {F : FTy → Type} [FloatOps F]

class Facts₀ : Prop where
  bcast_S11008_S1x11008_1 : S11008.BroadcastsInDim S1x11008 (![1] : Fin 1 → Fin S1x11008.rank)
  bcast_S1x11008_S8x11008_0_1 : S1x11008.BroadcastsInDim S8x11008 (![0, 1] : Fin 2 → Fin S8x11008.rank)
  dot_S8x4096_S11008x4096_S8x11008_1_1_0_0_n_n_wf : DotDims.WF S8x4096 S11008x4096 S8x11008 [1] [1] [0] [0] [] []

variable [Facts₀]

def dot_S8x4096_S11008x4096_S8x11008_1_1_0_0_n_n : DotDims S8x4096 S11008x4096 S8x11008 where
  lhsContracting := [1]
  rhsContracting := [1]
  lhsNonContracting := [0]
  rhsNonContracting := [0]
  lhsBatch := []
  rhsBatch := []
  wf := dot_S8x4096_S11008x4096_S8x11008_1_1_0_0_n_n_wf

class Facts : Prop extends Facts₀ where

variable [Facts]
-- ==== Proof.Spec.lean ====
/-
  The specification: a linear layer whose weight is reconstructed elementwise, as one function of the argument arrays.

  With the weight  W[o, j] = a₁[o, j] · a₂[o, j] + a₃[o, j]  (an elementwise product corrected by an additive term), the
  result is  y[b, o] = (∑ j < 4096, x[b, j] · W[o, j]) + bias[o]  over the extended reals.

  The one law the two programs differ by: a sum over 4096 contraction indices is the sum over its first 2048 plus the
  sum over its last 2048. Addition of extended reals is a commutative monoid, so this holds at infinite entries too and
  no finiteness of the inputs is used.
-/
import Idealize.ShloMosaic.PureOps.Ideal
import Idealize.ShloMosaic.Lib.ValueIdx

noncomputable section

namespace Cert.LinearSpec

open Idealize.ShloMosaic Idealize.ShloMosaic.ValueIdx

/-- The shapes of the arguments and of the result. -/
abbrev SX : Shape := ⟨2, ![8, 4096]⟩
abbrev SW : Shape := ⟨2, ![11008, 4096]⟩
abbrev SBias : Shape := ⟨1, ![11008]⟩
abbrev SY : Shape := ⟨2, ![8, 11008]⟩

/-- Contraction index `j` of the first half (`h = 0`) or the second half (`h = 1`) of the 4096 columns. -/
abbrev col (h : Fin 2) (j : Fin 2048) : Fin 4096 := ⟨2048 * h.val + j.val, by have := h.isLt; have := j.isLt; omega⟩

/-- Output feature `o'` of the `q`-th group of 256 features. -/
abbrev feat (q : Fin 43) (o : Fin 256) : Fin 11008 := ⟨256 * q.val + o.val, by have := q.isLt; have := o.isLt; omega⟩

/-- One entry of the reconstructed weight: `a₁ · a₂ + a₃`. -/
def weight (a1 a2 a3 : SW.Idx → EReal) (o : Fin 11008) (j : Fin 4096) : EReal :=
  a1 (ix2 o j) * a2 (ix2 o j) + a3 (ix2 o j)

/-- One term of the contraction: `x[b, j] · W[o, j]`. -/
def term (x : SX.Idx → EReal) (a1 a2 a3 : SW.Idx → EReal) (b : Fin 8) (o : Fin 11008) (j : Fin 4096) : EReal :=
  x (ix2 b j) * weight a1 a2 a3 o j

/-- The layer: `y[b, o] = (∑ j, x[b, j] · W[o, j]) + bias[o]`. -/
def linear (x : SX.Idx → EReal) (a1 a2 a3 : SW.Idx → EReal) (bias : SBias.Idx → EReal) : SY.Idx → EReal :=
  fun i => (∑ j : Fin 4096, term x a1 a2 a3 (i 0) (i 1) j) + bias (ix1 (i 1))

/-- A sum over the 4096 columns is the sum over the first 2048 plus the sum over the last 2048 (in any commutative
    monoid, hence for extended reals with infinite entries as well). -/
theorem sum_halves {M : Type*} [AddCommMonoid M] (f : Fin 4096 → M) :
    ∑ j : Fin 4096, f j = (∑ j : Fin 2048, f (col 0 j)) + ∑ j : Fin 2048, f (col 1 j) := by
  -- `Fin.sum_univ_add` splits at `2048 + 2048`; its two index embeddings are `col 0` and `col 1` by computation
  exact (Fin.sum_univ_add (a := 2048) (b := 2048) (f : Fin (2048 + 2048) → M)).trans rfl

/-- The layer with its contraction split in the two halves a blocked evaluation visits in turn, accumulated from zero:
    `((0 + ∑ first half) + ∑ second half) + bias`. -/
theorem linear_eq_blocked (x : SX.Idx → EReal) (a1 a2 a3 : SW.Idx → EReal) (bias : SBias.Idx → EReal) (b : Fin 8)
    (o : Fin 11008) :
    ((0 + ∑ j : Fin 2048, term x a1 a2 a3 b o (col 0 j)) + ∑ j : Fin 2048, term x a1 a2 a3 b o (col 1 j))
        + bias (ix1 o)
      = linear x a1 a2 a3 bias (ix2 b o) := by
  show _ = (∑ j : Fin 4096, term x a1 a2 a3 b o j) + bias (ix1 o)
  rw [sum_halves, zero_add]

end Cert.LinearSpec

end
-- ==== Proof.Pieces.lean ====
/-
  What one run of the kernel body leaves behind, as values of the blocks it loaded (at any float instance).

  At a point with k = 0 the body zero-fills the accumulator, reads it back, and leaves in it
      acc₀ = 0 + x_blk · W_blkᵀ            (the zero block, then one matrix product added to it);
  at a point with k = 1 it finds the accumulator at what the point before left, adds its own matrix product, and
  stores into the output block
      (acc + x_blk · W_blkᵀ) + bias row    (the bias row repeated down the 8 batch rows).
  Each is one store covering the whole buffer, so the buffer ends holding exactly that store's value; the loads the
  value is built from read whole buffers, that is, the blocks themselves.
-/
import proofs.«142625_j82094004896527_1_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem

namespace Cert.KernelIdeal.Pieces

open Cert.KernelIdeal Cert.KernelIdeal.Gen

variable {F : FTy → Type} [FloatOps F]

/-- A rectangle starting at the origin of a rank-2 buffer. -/
theorem origin : (![0, 0] : Fin 2 → Nat) = fun _ => 0 := funext fun a => by fin_cases a <;> rfl

/-- k = 0: the accumulator ends at the zero block plus this point's matrix product (`k0_pay2 … k0_pay1`: the second
    store's value, whose accumulator operand is the read-back of the first store, the zero block). -/
theorem scratch_first (c : Dev nD) (i : grid0.Coords) (arg2 : Memref sig .tc .vmem S8x2048 .f32) (harg2 : arg2.IsWhole) (arg3 : Memref sig .tc .vmem S256x2048 .f32) (harg3 : arg3.IsWhole) (arg4 : Memref sig .tc .vmem S256x2048 .f32) (harg4 : arg4.IsWhole) (arg5 : Memref sig .tc .vmem S256x2048 .f32) (harg5 : arg5.IsWhole) (arg6 : Memref sig .tc .vmem S1x256 .f32) (harg6 : arg6.IsWhole) (arg7 : Memref sig .tc .vmem S8x256 .f32) (harg7 : arg7.IsWhole) (arg8 : Memref sig .tc .vmem S8x256 .f32) (harg8 : arg8.IsWhole) (hc0 : cond0_0 i) (hc1 : ¬cond0_1 i) (x0 : Vec F S8x2048 .f32) (x1 : Vec F S256x2048 .f32) (x2 : Vec F S256x2048 .f32) (x3 : Vec F S256x2048 .f32) (x4 : Vec F S1x256 .f32) :
    sout0_A_0 c i arg2 harg2 arg3 harg3 arg4 harg4 arg5 harg5 arg6 harg6 arg7 harg7 arg8 harg8 hc0 hc1 x0 x1 x2 x3 x4 = k0_pay2 x1 x2 x3 x0 (k0_pay1 (F := F)) := by
  unfold sout0_A_0
  rw [View.read_writes_eq_canon _ _ _ (scover0_A_0 c i arg2 harg2 arg3 harg3 arg4 harg4 arg5 harg5 arg6 harg6 arg7 harg7 arg8 harg8 hc0 hc1 x0 x1 x2 x3 x4)]
  unfold kernelRun0_A
  dsimp only
  sl_unfold_words
  rw [View.canon_cons_unit_zero (S := S8x256) origin, View.readCov_unit_zero (S := S8x256) _ origin]
  simp only [View.readAt_eq_ld, harg2.read_unread, harg3.read_unread, harg4.read_unread, harg5.read_unread,
    View.ld_unit_zero (S := S256x2048) origin, View.ld_unit_zero (S := S8x2048) origin]

/-- k = 1: the output block ends at (what the accumulator held + this point's matrix product) + the bias row
    (`k0_pay3 (k0_pay2 … acc) bias`: the output's one store, whose first operand is the read-back of the accumulator's
    store at this same point). -/
theorem out_last (c : Dev nD) (i : grid0.Coords) (arg2 : Memref sig .tc .vmem S8x2048 .f32) (harg2 : arg2.IsWhole) (arg3 : Memref sig .tc .vmem S256x2048 .f32) (harg3 : arg3.IsWhole) (arg4 : Memref sig .tc .vmem S256x2048 .f32) (harg4 : arg4.IsWhole) (arg5 : Memref sig .tc .vmem S256x2048 .f32) (harg5 : arg5.IsWhole) (arg6 : Memref sig .tc .vmem S1x256 .f32) (harg6 : arg6.IsWhole) (arg7 : Memref sig .tc .vmem S8x256 .f32) (harg7 : arg7.IsWhole) (arg8 : Memref sig .tc .vmem S8x256 .f32) (harg8 : arg8.IsWhole) (hc0 : ¬cond0_0 i) (hc1 : cond0_1 i) (x0 : Vec F S8x2048 .f32) (x1 : Vec F S256x2048 .f32) (x2 : Vec F S256x2048 .f32) (x3 : Vec F S256x2048 .f32) (x4 : Vec F S1x256 .f32) (xs0 : Vec F S8x256 .f32) :
    out0_B_5 c i arg2 harg2 arg3 harg3 arg4 harg4 arg5 harg5 arg6 harg6 arg7 harg7 arg8 harg8 hc0 hc1 x0 x1 x2 x3 x4 xs0 = k0_pay3 (k0_pay2 x1 x2 x3 x0 xs0) x4 := by
  unfold out0_B_5
  rw [View.read_writes_eq_canon _ _ _ (cover0_B_5 c i arg2 harg2 arg3 harg3 arg4 harg4 arg5 harg5 arg6 harg6 arg7 harg7 arg8 harg8 hc0 hc1 x0 x1 x2 x3 x4 xs0)]
  unfold kernelRun0_B
  dsimp only
  sl_unfold_words
  rw [View.canon_unit_zero origin, View.readCov_unit_zero (S := S8x256) _ origin]
  simp only [View.readAt_eq_ld, harg2.read_unread, harg3.read_unread, harg4.read_unread, harg5.read_unread,
    harg6.read_unread, harg8.read_unread, View.ld_unit_zero (S := S256x2048) origin,
    View.ld_unit_zero (S := S8x2048) origin, View.ld_unit_zero (S := S8x256) origin,
    View.ld_unit_zero (S := S1x256) origin]

end Cert.KernelIdeal.Pieces

end
-- ==== Proof.Payload.lean ====
/-
  The body's three stored values read at an index, over the extended reals.

  * the reset block is 0 everywhere;
  * the accumulation step at (b, o) is   acc[b, o] + ∑ j < 2048, x_blk[b, j] · (a₁_blk[o, j] · a₂_blk[o, j] + a₃_blk[o, j]):
    the conversions to bf16 are the identity on extended reals, the matrix unit's product into a zero accumulator is
    the plain sum over the one contracted axis (the second axis of both operands);
  * the epilogue at (b, o) is   acc[b, o] + bias_row[0, o]  — the [1, 256] row repeated down the 8 batch rows.
-/
import proofs.«142625_j82094004896527_1_alg».proof.Proof.Gen.KernelIdeal.Skeleton
import Idealize.ShloMosaic.Lib.Pipeline.Value
import Idealize.ShloMosaic.Lib.ValueIdx
import Idealize.ShloMosaic.PureOps.Ideal.Laws

noncomputable section

open Idealize.ShloMosaic Idealize.ShloMosaic.TcCoe Idealize.SL.Sem

namespace Cert.KernelIdeal.Payload

open Cert.KernelIdeal Cert.KernelIdeal.Gen Idealize.ShloMosaic.ValueIdx

/-- The contracted-axis record of the body's matrix product: [8, 2048] × [256, 2048] → [8, 256], contracting the second
    axis of each operand. -/
local notation "dotBlk" => dot_S8x2048_S256x2048_S8x256_1_1_0_0_n_n

/-- The reset block is zero everywhere. -/
theorem reset_apply (y : S8x256.Idx) : k0_pay1 (F := Ideal) y = 0 := by
  unfold k0_pay1
  rw [shapeCast_self]
  exact Ideal.ofBits_zero_f32

/-- The left operand's row is the output's row (its first axis is not contracted). -/
theorem lhs_row (i : S8x256.Idx) (q : (dotBlk).contr.Idx) : ((dotBlk).lhsIdx i q 0).val = (i 0).val := by
  unfold DotDims.lhsIdx
  rw [dif_neg (show ¬(0 : Fin S8x2048.rank) ∈ (dotBlk).lhsBatch by decide),
    dif_pos (show (0 : Fin S8x2048.rank) ∈ (dotBlk).lhsNonContracting by decide)]
  rfl

/-- The right operand's row is the output's column (its first axis is not contracted). -/
theorem rhs_row (i : S8x256.Idx) (q : (dotBlk).contr.Idx) : ((dotBlk).rhsIdx i q 0).val = (i 1).val := by
  unfold DotDims.rhsIdx
  rw [dif_neg (show ¬(0 : Fin S256x2048.rank) ∈ (dotBlk).rhsBatch by decide),
    dif_pos (show (0 : Fin S256x2048.rank) ∈ (dotBlk).rhsNonContracting by decide)]
  rfl

/-- The left operand of the product at output (b, o) and contraction index j is entry (b, j). -/
theorem lhs_at (b : Fin 8) (o : Fin 256) (j : Fin 2048) :
    (dotBlk).lhsIdx (ix2 b o) ((contrEquiv1 (dotBlk) 2048 rfl rfl).symm j) = ix2 b j := by
  have hk := contrEquiv1_symm_val (dotBlk) 2048 rfl rfl j
  funext a
  apply Fin.ext
  match a with
  | ⟨0, _⟩ => exact lhs_row (ix2 b o) _
  | ⟨1, _⟩ => exact ((dotBlk).lhsIdx_val_of_single rfl (ix2 b o) _).trans hk

/-- The right operand of the product at output (b, o) and contraction index j is entry (o, j). -/
theorem rhs_at (b : Fin 8) (o : Fin 256) (j : Fin 2048) :
    (dotBlk).rhsIdx (ix2 b o) ((contrEquiv1 (dotBlk) 2048 rfl rfl).symm j) = ix2 o j := by
  have hk := contrEquiv1_symm_val (dotBlk) 2048 rfl rfl j
  funext a
  apply Fin.ext
  match a with
  | ⟨0, _⟩ => exact rhs_row (ix2 b o) _
  | ⟨1, _⟩ => exact ((dotBlk).rhsIdx_val_of_single rfl (ix2 b o) _).trans hk

/-- The accumulation step at (b, o): what the accumulator held there plus the 2048-term product sum of row b of the
    x block with row o of the reconstructed weight block. -/
theorem step_apply (w1 w2 w3 : Vec Ideal S256x2048 .f32) (x : Vec Ideal S8x2048 .f32) (acc : Vec Ideal S8x256 .f32)
    (b : Fin 8) (o : Fin 256) :
    k0_pay2 w1 w2 w3 x acc (ix2 b o)
      = acc (ix2 b o) + ∑ j : Fin 2048, x (ix2 b j) * (w1 (ix2 o j) * w2 (ix2 o j) + w3 (ix2 o j)) := by
  unfold k0_pay2
  rw [shapeCast_self]
  show acc (ix2 b o) + FloatOps.matmul (dotBlk) none (truncf .bf16 x bitsLt_bf16_f32)
      (truncf .bf16 (addf (mulf w1 w2) w3) bitsLt_bf16_f32) (constant (F := Ideal) S8x256 .f32 0x00000000#32) (ix2 b o) = _
  rw [Ideal.matmul_constant_zero_apply, ← Equiv.sum_comp (contrEquiv1 (dotBlk) 2048 rfl rfl).symm]
  refine congrArg (acc (ix2 b o) + ·) (Finset.sum_congr rfl fun j _ => ?_)
  rw [lhs_at, rhs_at]
  rfl

/-- The epilogue at (b, o): the accumulator there plus entry o of the bias row. -/
theorem epilogue_apply (acc : Vec Ideal S8x256 .f32) (row : Vec Ideal S1x256 .f32) (b : Fin 8) (o : Fin 256) :
    k0_pay3 acc row (ix2 b o) = acc (ix2 b o) + row (ix2 0 o) := by
  unfold k0_pay3
  rw [shapeCast_self]
  show acc (ix2 b o) + broadcastTo S8x256 row broadcasts_S1x256_S8x256 (ix2 b o) = _
  rw [broadcastTo_apply row broadcasts_S1x256_S8x256 (ix2 b o) (ix2 0 o) (fun a => match a with
    | ⟨0, _⟩ => by show 0 = if (1 : Nat) = 1 then 0 else b.val; rw [if_pos rfl]
    | ⟨1, _⟩ => by show o.val = if (256 : Nat) = 1 then 0 else o.val; rw [if_neg (by decide)])]

end Cert.KernelIdeal.Payload

end
-- ==== Proof.Blocks.lean ====
/-
  The blocks the pipeline hands the body, read at an index as entries of the argument arrays (at any float instance).

  Grid point t is the pair (q, h) = (t / 2, t mod 2): q names a group of 256 output features, h a half of the 4096
  contraction columns. At that point
    * the x block is columns  2048·h … 2048·h + 2047  of x, all 8 rows;
    * each of the three weight-factor blocks is rows  256·q … 256·q + 255, the same columns;
    * the bias block is entries  256·q … 256·q + 255  of the bias, as a [1, 256] row — the pipeline stages the bias
      reshaped to [1, 11008], and a reshape keeps the row-major position;
    * the output block is columns  256·q … 256·q + 255  of the result, all 8 rows.
  A block's coordinate along an axis is always (block index) × (block size) + (coordinate inside the block); the block
  indices are the printed index maps, decided once over the 86 grid points.
-/
import proofs.«142625_j82094004896527_1_alg».proof.Proof.Gen.KernelIdeal.Frame
import proofs.«142625_j82094004896527_1_alg».proof.Proof.Spec
import Idealize.ShloMosaic.Lib.Pipeline.Value
import Idealize.ShloMosaic.Lib.ValueIdx
import Idealize.ShloMosaic.Lib.StableHlo.Run

noncomputable section

open Idealize.ShloMosaic Idealize.ShloMosaic.TcCoe Idealize.SL.Sem

namespace Cert.KernelIdeal.Blocks

open Cert.KernelIdeal Cert.KernelIdeal.Gen Idealize.ShloMosaic.ValueIdx Cert.LinearSpec

variable {F : FTy → Type} [FloatOps F]
variable (m : (ℓ : Loc nD τ sig) → Buf (Elt F) ℓ)

/-- The printed index maps at point t: the x block moves with t mod 2, the weight blocks with (t / 2, t mod 2), the bias
    and output blocks with t / 2. -/
theorem index_facts : ∀ t : Fin cfg0.N,
    win0_0.index t (0 : Fin 2) = 0 ∧ win0_0.index t (1 : Fin 2) = t.val % 2
    ∧ win0_1.index t (0 : Fin 2) = t.val / 2 ∧ win0_1.index t (1 : Fin 2) = t.val % 2
    ∧ win0_2.index t (0 : Fin 2) = t.val / 2 ∧ win0_2.index t (1 : Fin 2) = t.val % 2
    ∧ win0_3.index t (0 : Fin 2) = t.val / 2 ∧ win0_3.index t (1 : Fin 2) = t.val % 2
    ∧ win0_4.index t (0 : Fin 2) = 0 ∧ win0_4.index t (1 : Fin 2) = t.val / 2
    ∧ win0_5.index t (0 : Fin 2) = 0 ∧ win0_5.index t (1 : Fin 2) = t.val / 2 :=
  (by decide +kernel : ∀ t : Fin grid0.N, _)

/-- The x block at (b, j) is x[b, 2048·h + j]. -/
theorem x_blk (c : Dev nD) (t : Fin cfg0.N) (h : Fin 2) (hh : t.val % 2 = h.val) (b : Fin 8) (j : Fin 2048) :
    (iblk m c 0 t : Vec F S8x2048 .f32) (ix2 b j) = m ((c : Thread nD τ).loc main_arg0) (ix2 b (col h j)) := by
  obtain ⟨e0, e1, -⟩ := index_facts t
  unfold iblk
  rw [View.read_apply]
  show V m c main_arg0 _ = _
  rw [V_main_arg0]
  refine congrArg _ (funext fun a => Fin.ext ?_)
  match a with
  | ⟨0, _⟩ => show win0_0.index t (0 : Fin 2) * 8 + 1 * b.val = b.val; rw [e0]; omega
  | ⟨1, _⟩ => show win0_0.index t (1 : Fin 2) * 2048 + 1 * j.val = 2048 * h.val + j.val; rw [e1, hh]; omega

/-- The first weight-factor block at (o, j) is a₁[256·q + o, 2048·h + j]. -/
theorem w1_blk (c : Dev nD) (t : Fin cfg0.N) (q : Fin 43) (h : Fin 2) (hq : t.val / 2 = q.val) (hh : t.val % 2 = h.val)
    (o : Fin 256) (j : Fin 2048) :
    (iblk m c 1 t : Vec F S256x2048 .f32) (ix2 o j) = m ((c : Thread nD τ).loc main_arg1) (ix2 (feat q o) (col h j)) := by
  obtain ⟨-, -, e0, e1, -⟩ := index_facts t
  unfold iblk
  rw [View.read_apply]
  show V m c main_arg1 _ = _
  rw [V_main_arg1]
  refine congrArg _ (funext fun a => Fin.ext ?_)
  match a with
  | ⟨0, _⟩ => show win0_1.index t (0 : Fin 2) * 256 + 1 * o.val = 256 * q.val + o.val; rw [e0, hq]; omega
  | ⟨1, _⟩ => show win0_1.index t (1 : Fin 2) * 2048 + 1 * j.val = 2048 * h.val + j.val; rw [e1, hh]; omega

/-- The second weight-factor block at (o, j) is a₂[256·q + o, 2048·h + j]. -/
theorem w2_blk (c : Dev nD) (t : Fin cfg0.N) (q : Fin 43) (h : Fin 2) (hq : t.val / 2 = q.val) (hh : t.val % 2 = h.val)
    (o : Fin 256) (j : Fin 2048) :
    (iblk m c 2 t : Vec F S256x2048 .f32) (ix2 o j) = m ((c : Thread nD τ).loc main_arg2) (ix2 (feat q o) (col h j)) := by
  obtain ⟨-, -, -, -, e0, e1, -⟩ := index_facts t
  unfold iblk
  rw [View.read_apply]
  show V m c main_arg2 _ = _
  rw [V_main_arg2]
  refine congrArg _ (funext fun a => Fin.ext ?_)
  match a with
  | ⟨0, _⟩ => show win0_2.index t (0 : Fin 2) * 256 + 1 * o.val = 256 * q.val + o.val; rw [e0, hq]; omega
  | ⟨1, _⟩ => show win0_2.index t (1 : Fin 2) * 2048 + 1 * j.val = 2048 * h.val + j.val; rw [e1, hh]; omega

/-- The additive weight-term block at (o, j) is a₃[256·q + o, 2048·h + j]. -/
theorem w3_blk (c : Dev nD) (t : Fin cfg0.N) (q : Fin 43) (h : Fin 2) (hq : t.val / 2 = q.val) (hh : t.val % 2 = h.val)
    (o : Fin 256) (j : Fin 2048) :
    (iblk m c 3 t : Vec F S256x2048 .f32) (ix2 o j) = m ((c : Thread nD τ).loc main_arg3) (ix2 (feat q o) (col h j)) := by
  obtain ⟨-, -, -, -, -, -, e0, e1, -⟩ := index_facts t
  unfold iblk
  rw [View.read_apply]
  show V m c main_arg3 _ = _
  rw [V_main_arg3]
  refine congrArg _ (funext fun a => Fin.ext ?_)
  match a with
  | ⟨0, _⟩ => show win0_3.index t (0 : Fin 2) * 256 + 1 * o.val = 256 * q.val + o.val; rw [e0, hq]; omega
  | ⟨1, _⟩ => show win0_3.index t (1 : Fin 2) * 2048 + 1 * j.val = 2048 * h.val + j.val; rw [e1, hh]; omega

/-- The array the bias window stages is the bias reshaped to one row of 11008. -/
theorem bias_staged (c : Dev nD) :
    (V m c main_v0 : S1x11008.Idx → Elt F .f32)
      = shapeCast S1x11008 (m ((c : Thread nD τ).loc main_arg4)) shapeCasts_S11008_S1x11008 := by
  dsimp only [V, hostOps0]
  after_results
  rfl

/-- Entry (0, n) of that row is entry n of the bias: both sit at row-major position n. -/
theorem bias_staged_apply (c : Dev nD) (n : Fin 11008) :
    (V m c main_v0 : S1x11008.Idx → Elt F .f32) (ix2 0 n) = m ((c : Thread nD τ).loc main_arg4) (ix1 n) := by
  rw [bias_staged]
  refine shapeCast_apply _ shapeCasts_S11008_S1x11008 (ix2 0 n) (ix1 n) ?_
  rw [Shape.rowMajor_val_one, Shape.rowMajor_val_two]
  show n.val = 0 * 11008 + n.val
  omega

/-- The bias block at (0, o) is bias[256·q + o]. -/
theorem bias_blk (c : Dev nD) (t : Fin cfg0.N) (q : Fin 43) (hq : t.val / 2 = q.val) (o : Fin 256) :
    (iblk m c 4 t : Vec F S1x256 .f32) (ix2 0 o) = m ((c : Thread nD τ).loc main_arg4) (ix1 (feat q o)) := by
  obtain ⟨-, -, -, -, -, -, -, -, e0, e1, -⟩ := index_facts t
  unfold iblk
  rw [View.read_apply]
  show (V m c main_v0 : S1x11008.Idx → Elt F .f32) _ = _
  rw [← bias_staged_apply m c (feat q o)]
  refine congrArg _ (funext fun a => Fin.ext ?_)
  match a with
  | ⟨0, _⟩ => show win0_4.index t (0 : Fin 2) * 1 + 1 * 0 = 0; rw [e0]
  | ⟨1, _⟩ => show win0_4.index t (1 : Fin 2) * 256 + 1 * o.val = 256 * q.val + o.val; rw [e1, hq]; omega

/-- Entry (b, o) of the output block sits at (b, 256·q + o) of the result array. -/
theorem out_emb (t : Fin cfg0.N) (q : Fin 43) (hq : t.val / 2 = q.val) (b : Fin 8) (o : Fin 256) :
    ((cfg0.win 5).blk t).view.emb (ix2 b o) = (ix2 b (feat q o) : S8x11008.Idx) := by
  obtain ⟨-, -, -, -, -, -, -, -, -, -, e0, e1⟩ := index_facts t
  refine funext fun a => Fin.ext ?_
  match a with
  | ⟨0, _⟩ => show win0_5.index t (0 : Fin 2) * 8 + 1 * b.val = b.val; rw [e0]; omega
  | ⟨1, _⟩ => show win0_5.index t (1 : Fin 2) * 256 + 1 * o.val = 256 * q.val + o.val; rw [e1, hq]; omega

end Cert.KernelIdeal.Blocks

end
-- ==== Proof.KernelValue.lean ====
/-
  What the kernel's result array holds after the run: the layer `linear` of the five arguments.

  The 86 grid points come in pairs (2q, 2q + 1), one pair per group q of 256 output features. The even point resets the
  accumulator and leaves in it  0 + (first-half product sum);  the odd point adds the second-half product sum, adds the
  bias row, stores the output block, and is the only one of the pair whose block is written back. So the block written
  back at the odd point 2q + 1 is, entry by entry,
      ((0 + ∑ j < 2048, x[b, j] · W[256q + o, j]) + ∑ j < 2048, x[b, 2048 + j] · W[256q + o, 2048 + j]) + bias[256q + o],
  which is `linear` at (b, 256q + o) by splitting the 4096-term sum in its halves. The 43 written-back blocks tile the
  [8, 11008] result (column n lies in the block of the odd point 2·(n / 256) + 1), so the array ends holding `linear`.
-/
import proofs.«142625_j82094004896527_1_alg».proof.Proof.Gen.KernelIdeal.Value
import proofs.«142625_j82094004896527_1_alg».proof.Proof.Spec
import proofs.«142625_j82094004896527_1_alg».proof.Proof.Pieces
import proofs.«142625_j82094004896527_1_alg».proof.Proof.Payload
import proofs.«142625_j82094004896527_1_alg».proof.Proof.Blocks
import Idealize.ShloMosaic.Lib.Pipeline.Value
import Idealize.ShloMosaic.Lib.ValueIdx

noncomputable section

open Idealize.ShloMosaic Idealize.ShloMosaic.TcCoe Idealize.SL.Sem

open Idealize.ShloMosaic.Pipeline (Dat)

namespace Cert.KernelIdeal.Result

open Cert.KernelIdeal Cert.KernelIdeal.Gen Idealize.ShloMosaic.ValueIdx Cert.LinearSpec

variable (m : (ℓ : Loc nD τ sig) → Buf (Elt Ideal) ℓ) (ρ : Dev nD → PrngReg)

/-- The result array's contents: the layer of the five argument arrays as launched. -/
abbrev result (c : Dev nD) : Buf (Elt Ideal) ((c : Thread nD τ).loc main_v1) :=
  linear (m ((c : Thread nD τ).loc main_arg0)) (m ((c : Thread nD τ).loc main_arg1)) (m ((c : Thread nD τ).loc main_arg2))
    (m ((c : Thread nD τ).loc main_arg3)) (m ((c : Thread nD τ).loc main_arg4))

/-- A pair of points, as values: reset, first step, second step, epilogue — read at (b, o). -/
theorem pair_apply (xa xb : Vec Ideal S8x2048 .f32) (w1a w2a w3a w1b w2b w3b : Vec Ideal S256x2048 .f32)
    (row : Vec Ideal S1x256 .f32) (b : Fin 8) (o : Fin 256) :
    k0_pay3 (k0_pay2 w1b w2b w3b xb (k0_pay2 w1a w2a w3a xa (k0_pay1 (F := Ideal)))) row (ix2 b o)
      = ((0 + ∑ j : Fin 2048, xa (ix2 b j) * (w1a (ix2 o j) * w2a (ix2 o j) + w3a (ix2 o j)))
          + ∑ j : Fin 2048, xb (ix2 b j) * (w1b (ix2 o j) * w2b (ix2 o j) + w3b (ix2 o j)))
        + row (ix2 0 o) := by
  rw [Payload.epilogue_apply, Payload.step_apply, Payload.step_apply, Payload.reset_apply]

/-- The same pair of points, when the blocks it loaded are the argument arrays' entries of feature group q — the even
    point's the first half of the columns, the odd point's the second half — is the layer at (b, 256·q + o): the two
    half sums are the 4096-term sum split in two. -/
theorem pair_eq (xa xb : Vec Ideal S8x2048 .f32) (w1a w2a w3a w1b w2b w3b : Vec Ideal S256x2048 .f32)
    (row : Vec Ideal S1x256 .f32) (b : Fin 8) (o : Fin 256) (q : Fin 43)
    (X : SX.Idx → EReal) (A1 A2 A3 : SW.Idx → EReal) (Bias : SBias.Idx → EReal)
    (hxa : ∀ j, xa (ix2 b j) = X (ix2 b (col 0 j))) (hxb : ∀ j, xb (ix2 b j) = X (ix2 b (col 1 j)))
    (h1a : ∀ j, w1a (ix2 o j) = A1 (ix2 (feat q o) (col 0 j))) (h1b : ∀ j, w1b (ix2 o j) = A1 (ix2 (feat q o) (col 1 j)))
    (h2a : ∀ j, w2a (ix2 o j) = A2 (ix2 (feat q o) (col 0 j))) (h2b : ∀ j, w2b (ix2 o j) = A2 (ix2 (feat q o) (col 1 j)))
    (h3a : ∀ j, w3a (ix2 o j) = A3 (ix2 (feat q o) (col 0 j))) (h3b : ∀ j, w3b (ix2 o j) = A3 (ix2 (feat q o) (col 1 j)))
    (hrow : row (ix2 0 o) = Bias (ix1 (feat q o))) :
    k0_pay3 (k0_pay2 w1b w2b w3b xb (k0_pay2 w1a w2a w3a xa (k0_pay1 (F := Ideal)))) row (ix2 b o)
      = linear X A1 A2 A3 Bias (ix2 b (feat q o)) := by
  rw [pair_apply]
  simp only [hxa, hxb, h1a, h1b, h2a, h2b, h3a, h3b, hrow]
  exact linear_eq_blocked X A1 A2 A3 Bias b (feat q o)

/-- What an odd point writes back is its block of `linear`. -/
theorem flushed_eq (c : Dev nD) (t : Fin cfg0.N) (hf : (cfg0.win 5).flush t = true) :
    (dats m 0 c).flushed 5 t = ((cfg0.win 5).blk t).view.read (Elt Ideal) (result m c) := by
  have hN : cfg0.N = 86 := N_0
  have hlt := t.isLt
  have h1 : t.val % 2 = 1 := (flush0_5 t).mp hf
  have h0 : ¬t.val % 2 = 0 := by omega
  -- the point before: the same feature group, the first half of the columns
  let tp : Fin cfg0.N := ⟨t.val - 1, by omega⟩
  have hp0 : tp.val % 2 = 0 := by show (t.val - 1) % 2 = 0; omega
  have hp1 : ¬tp.val % 2 = 1 := by show ¬(t.val - 1) % 2 = 1; omega
  let q : Fin 43 := ⟨t.val / 2, by omega⟩
  have hq : t.val / 2 = q.val := rfl
  have hqp : tp.val / 2 = q.val := by show (t.val - 1) / 2 = t.val / 2; omega
  have hh : t.val % 2 = (1 : Fin 2).val := h1
  have hhp : tp.val % 2 = (0 : Fin 2).val := hp0
  -- the accumulator as the even point left it
  have hprev : (outsAt0 m c (t.val - 1) (Nat.lt_of_le_of_lt (Nat.sub_le _ _) t.isLt)).2
      = k0_pay2 (iblk m c 1 tp) (iblk m c 2 tp) (iblk m c 3 tp) (iblk m c 0 tp) (k0_pay1 (F := Ideal)) := by
    have e := outsAt0_A m c tp hp0 hp1
    have e2 : (outsAt0 m c (t.val - 1) (Nat.lt_of_le_of_lt (Nat.sub_le _ _) t.isLt)).2 = (outsAt0 m c tp.val tp.isLt).2 := rfl
    rw [e2, e]
    exact Pieces.scratch_first c (grid0.coords tp) (ms0_0 tp) (hs0_0 tp) (ms0_1 tp) (hs0_1 tp) (ms0_2 tp) (hs0_2 tp) (ms0_3 tp) (hs0_3 tp) (ms0_4 tp) (hs0_4 tp) (ms0_5 tp) (hs0_5 tp) scM0_0 (Memref.isWhole_whole _) ((hcond0_0 tp).mpr hp0) (fun h => hp1 ((hcond0_1 tp).mp h))
      (iblk m c 0 tp) (iblk m c 1 tp) (iblk m c 2 tp) (iblk m c 3 tp) (iblk m c 4 tp)
  refine (Value.flushed5_B m c t h0 h1).trans ?_
  rw [hprev]
  refine (congrArg ((cfg0.win 5).cut (grid0.coords t)) (Pieces.out_last c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _)
    (fun h => h0 ((hcond0_0 t).mp h)) ((hcond0_1 t).mpr h1) (iblk m c 0 t) (iblk m c 1 t) (iblk m c 2 t) (iblk m c 3 t)
    (iblk m c 4 t) (k0_pay2 (iblk m c 1 tp) (iblk m c 2 tp) (iblk m c 3 tp) (iblk m c 0 tp) (k0_pay1 (F := Ideal))))).trans ?_
  funext y
  obtain ⟨b, o, rfl⟩ : ∃ (b : Fin 8) (o : Fin 256), (y : S8x256.Idx) = ix2 b o := ⟨y 0, y 1, eq_ix2 (n0 := 8) (n1 := 256) y⟩
  rw [View.read_apply, Blocks.out_emb t q hq b o]
  show k0_pay3 (k0_pay2 (iblk m c 1 t) (iblk m c 2 t) (iblk m c 3 t) (iblk m c 0 t)
      (k0_pay2 (iblk m c 1 tp) (iblk m c 2 tp) (iblk m c 3 tp) (iblk m c 0 tp) (k0_pay1 (F := Ideal)))) (iblk m c 4 t) (ix2 b o)
    = result m c (ix2 b (feat q o))
  exact pair_eq (iblk m c 0 tp) (iblk m c 0 t) (iblk m c 1 tp) (iblk m c 2 tp) (iblk m c 3 tp) (iblk m c 1 t)
    (iblk m c 2 t) (iblk m c 3 t) (iblk m c 4 t) b o q
    (m ((c : Thread nD τ).loc main_arg0)) (m ((c : Thread nD τ).loc main_arg1)) (m ((c : Thread nD τ).loc main_arg2))
    (m ((c : Thread nD τ).loc main_arg3)) (m ((c : Thread nD τ).loc main_arg4))
    (fun j => Blocks.x_blk m c tp 0 hhp b j) (fun j => Blocks.x_blk m c t 1 hh b j)
    (fun j => Blocks.w1_blk m c tp q 0 hqp hhp o j) (fun j => Blocks.w1_blk m c t q 1 hq hh o j)
    (fun j => Blocks.w2_blk m c tp q 0 hqp hhp o j) (fun j => Blocks.w2_blk m c t q 1 hq hh o j)
    (fun j => Blocks.w3_blk m c tp q 0 hqp hhp o j) (fun j => Blocks.w3_blk m c t q 1 hq hh o j)
    (Blocks.bias_blk m c t q hq o)

/-- Every entry of the result lies in the block of an odd point: column n in that of point 2·(n / 256) + 1. -/
theorem cover (i : S8x11008.Idx) :
    ∃ t : Fin cfg0.N, (cfg0.win 5).flush t = true ∧ i ∈ ((cfg0.win 5).blk t).view.set := by
  have hN : cfg0.N = 86 := N_0
  have hi0 : (i 0).val < 8 := (i 0).isLt
  have hi1 : (i 1).val < 11008 := (i 1).isLt
  let t : Fin cfg0.N := ⟨2 * ((i 1).val / 256) + 1, by omega⟩
  obtain ⟨-, -, -, -, -, -, -, -, -, -, e0, e1⟩ := Blocks.index_facts t
  have e1' : win0_5.index t (1 : Fin 2) = (i 1).val / 256 := by
    rw [e1]; show (2 * ((i 1).val / 256) + 1) / 2 = _; omega
  refine ⟨t, (flush0_5 t).mpr (by show (2 * ((i 1).val / 256) + 1) % 2 = 1; omega), ?_⟩
  show i ∈ ((View.whole main_v1).slice (win0_5.rect t)).set
  rw [View.set_slice_whole, Rect.mem_set_unit]
  intro a
  match a with
  | ⟨0, _⟩ =>
    show win0_5.index t (0 : Fin 2) * 8 ≤ (i 0).val ∧ (i 0).val < win0_5.index t (0 : Fin 2) * 8 + 8
    rw [e0]; omega
  | ⟨1, _⟩ =>
    show win0_5.index t (1 : Fin 2) * 256 ≤ (i 1).val ∧ (i 1).val < win0_5.index t (1 : Fin 2) * 256 + 256
    rw [e1']; omega

/-- The result array ends holding the layer. -/
theorem final (c : Dev nD) : (dats m 0 c).arrAt 5 cfg0.N = result m c :=
  (dats m 0 c).arrAt_eq_of_cover 5 (result m c) (flushed_eq m c) cover

/-- The kernel's run, read: the result array at the layer of the arguments, the arguments unchanged. -/
theorem run : θ_run defs (onTc (τ := τ) (main (F := Ideal))) ⟨m, fun _ => 0, ρ⟩ fun r => ∀ c : Dev nD,
      r.2.mem ((c : Thread nD τ).loc main_v1) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (final m c), (h c).2⟩) (Value.run_blocks m ρ)

end Cert.KernelIdeal.Result

end
-- ==== Proof.RefValue.lean ====
/-
  The reference computes the specification.

  Its six host operations, read at an index (b, o) over the extended reals: the elementwise product and sum build the
  weight entry  a₁[o, j] · a₂[o, j] + a₃[o, j];  the contraction of the second axis of x with the second axis of the
  weight is  ∑ j < 4096, x[b, j] · W[o, j];  the two broadcasts carry bias[o] to every row b;  the last sum adds the two.
  That is `linear` entry by entry — no algebra, only naming the indices.
-/
import proofs.«142625_j82094004896527_1_alg».proof.Proof.Gen.ReferenceIdeal.Read
import proofs.«142625_j82094004896527_1_alg».proof.Proof.Spec
import Idealize.ShloMosaic.Lib.ValueIdx

noncomputable section

open Idealize.ShloMosaic Idealize.ShloMosaic.TcCoe Idealize.SL.Sem

namespace Cert.ReferenceIdeal.RefValue

open Cert.ReferenceIdeal Cert.ReferenceIdeal.Read Idealize.ShloMosaic.ValueIdx Cert.LinearSpec

/-- The reference's result term is the layer `linear` of its five arguments. -/
theorem result_eq (x : (⟨S8x4096, .f32⟩ : BufTy).Contents (Elt Ideal))
    (a1 a2 a3 : (⟨S11008x4096, .f32⟩ : BufTy).Contents (Elt Ideal)) (bias : (⟨S11008, .f32⟩ : BufTy).Contents (Elt Ideal)) :
    val_main_v5 (F := Ideal) x a1 a2 a3 bias = linear x a1 a2 a3 bias := by
  funext i
  obtain ⟨b, o, rfl⟩ : ∃ (b : Fin 8) (o : Fin 11008), i = ix2 b o := ⟨i 0, i 1, eq_ix2 i⟩
  -- the operand indices of the contraction at output (b, o) and contraction index k are (b, k) and (o, k)
  have el : ∀ k : Fin 4096, lidx_main_v2 (ix2 b o) k = ix2 b k := fun k =>
    funext fun a => Fin.ext (by match a with | ⟨0, _⟩ => rfl | ⟨1, _⟩ => rfl)
  have er : ∀ k : Fin 4096, ridx_main_v2 (ix2 b o) k = ix2 o k := fun k =>
    funext fun a => Fin.ext (by match a with | ⟨0, _⟩ => rfl | ⟨1, _⟩ => rfl)
  -- through the two broadcasts the bias is read at the output's feature coordinate
  have eb : idx_main_v3 (idx_main_v4 (ix2 b o)) = ix1 o :=
    funext fun a => Fin.ext (by match a with | ⟨0, _⟩ => rfl)
  rw [val_main_v5_apply, val_main_v2_apply, val_main_v4_apply, val_main_v3_apply, eb]
  show (∑ k : Fin 4096, x (lidx_main_v2 (ix2 b o) k) * val_main_v1 (F := Ideal) a1 a2 a3 (ridx_main_v2 (ix2 b o) k))
      + bias (ix1 o)
    = (∑ j : Fin 4096, term x a1 a2 a3 b o j) + bias (ix1 o)
  refine congrArg (· + bias (ix1 o)) (Finset.sum_congr rfl fun k _ => ?_)
  rw [el, er, val_main_v1_apply, val_main_v0_apply]
  rfl

end Cert.ReferenceIdeal.RefValue

end
-- ==== Proof.lean ====
/-
  A linear layer with an elementwise-reconstructed weight: a K-blocked accelerator kernel against the one-line
  formula, equal over the extended reals.

  Arguments: x : [8, 4096], three weight factors a₁, a₂, a₃ : [11008, 4096], bias : [11008]. With the weight
      W[o, j] = a₁[o, j] · a₂[o, j] + a₃[o, j]
  both programs compute
      y[b, o] = (∑ j < 4096, x[b, j] · W[o, j]) + bias[o].

  The reference does it in six whole-array operations. The kernel walks a 43 × 2 grid: for each group of 256 output
  features it visits the two halves of the 4096 columns in turn; at the first half it zeroes an [8, 256] accumulator and
  adds the half's product sum to it, at the second half it adds the other product sum, adds the bias row and stores the
  output block. The conversions to bf16 it makes before the matrix product are the identity on extended reals, and its
  product into a zero accumulator is the plain sum. So the kernel's entry is
      ((0 + ∑ first half) + ∑ second half) + bias[o],
  and the two sides differ only by splitting one finite sum in two — a law of any commutative monoid, valid with infinite
  summands, so the finiteness of the inputs is never used.

  The modules: Spec (the formula and the sum-splitting law), Pieces (what one run of the body leaves, as values of the
  blocks it loaded), Payload (those values read at an index), Blocks (the pipeline's blocks as entries of the
  argument arrays), KernelValue (the result array after the kernel's run), RefValue (the reference's result). The
  kernel's frame, its run point by point and the reference's run are the generated modules imported below; the
  idealization rewrote no operation, so that it preserves the kernel's meaning is trivially true.
-/
import proofs.«142625_j82094004896527_1_alg».proof.Defs
import proofs.«142625_j82094004896527_1_alg».proof.Proof.Gen.Kernel
import proofs.«142625_j82094004896527_1_alg».proof.Proof.Gen.Kernel.Skeleton
import proofs.«142625_j82094004896527_1_alg».proof.Proof.Gen.Kernel.Launch
import proofs.«142625_j82094004896527_1_alg».proof.Proof.Gen.Kernel.Points
import proofs.«142625_j82094004896527_1_alg».proof.Proof.Gen.Kernel.Frame
import proofs.«142625_j82094004896527_1_alg».proof.Proof.Gen.KernelIdeal
import proofs.«142625_j82094004896527_1_alg».proof.Proof.Gen.KernelIdeal.Skeleton
import proofs.«142625_j82094004896527_1_alg».proof.Proof.Gen.KernelIdeal.Launch
import proofs.«142625_j82094004896527_1_alg».proof.Proof.Gen.KernelIdeal.Points
import proofs.«142625_j82094004896527_1_alg».proof.Proof.Gen.KernelIdeal.Frame
import proofs.«142625_j82094004896527_1_alg».proof.Proof.Gen.ReferenceIdeal
import proofs.«142625_j82094004896527_1_alg».proof.Proof.Gen.Pre_finite_inputs
import proofs.«142625_j82094004896527_1_alg».proof.Proof.Gen.KernelIdeal.Value
import proofs.«142625_j82094004896527_1_alg».proof.Proof.Gen.ReferenceIdeal.Run
import proofs.«142625_j82094004896527_1_alg».proof.Proof.Gen.ReferenceIdeal.Read
import proofs.«142625_j82094004896527_1_alg».proof.Proof.KernelValue
import proofs.«142625_j82094004896527_1_alg».proof.Proof.RefValue
import Idealize.ShloMosaic.Adequacy
import Idealize.ShloMosaic.Init

noncomputable section

namespace Cert.Proof

open Idealize.ShloMosaic Idealize.SL.Sem

/-- The kernel as printed terminates without a fault and leaves its arguments unchanged. -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- So does the reference: its run, with the statement about the result dropped. -/
theorem frame_reference : Cert.frame_ReferenceIdeal := fun m ρ _ =>
  (θ_run Cert.ReferenceIdeal.defs _ _).mono (fun _ h c => (h c).2) (Cert.ReferenceIdeal.Value.run (F := Ideal) m ρ)

/-- No operation was rewritten by the idealization: nothing to preserve. -/
theorem preserves : Cert.preserves_Kernel_KernelIdeal := trivial

/-- From arguments that agree, both programs end with the result array at `linear` of the arguments. -/
theorem algebraic : Cert.algebraic_KernelIdeal_ReferenceIdeal := by
  intro m ρ m' ρ' _ hagree
  refine ⟨fun c => Cert.KernelIdeal.Result.result m c, Cert.KernelIdeal.Result.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v5_eq, Cert.ReferenceIdeal.RefValue.result_eq, (hagree c).1, (hagree c).2.1,
    (hagree c).2.2.1, (hagree c).2.2.2.1, (hagree c).2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
